-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x256 : Shape := ⟨3, ![64, 16, 256]⟩
abbrev S64x16x65536 : Shape := ⟨3, ![64, 16, 65536]⟩
abbrev S_ : Shape := ⟨0, ![]⟩

class Facts : Prop where
  bcast_S_S64x16x256 : S_.BroadcastsInDim S64x16x256 (![] : Fin 0 → Fin S64x16x256.rank)
  reducesTo_S64x16x256_S_d0_1_2 : S64x16x256.ReducesTo [0, 1, 2] S_
  h_S_ : 0 < S_.numel
  bcast_S_S64x16x65536 : S_.BroadcastsInDim S64x16x65536 (![] : Fin 0 → Fin S64x16x65536.rank)
  reducesTo_S64x16x65536_S_d0_1_2 : S64x16x65536.ReducesTo [0, 1, 2] S_

variable [Facts]

def fn {F : FTy → Type} [FloatOps F] (main_arg0 : FVec F S64x16x256 .f32) (main_arg1 : FVec F S64x16x65536 .f32) : IVec S_ 1 :=
  let main_v0 : FVec F S64x16x256 .f32 := Host.absf main_arg0
  let main_cst : FVec F S_ .f32 := constant S_ .f32 0x7F800000#32
  let main_v1 : FVec F S64x16x256 .f32 := broadcastInDim S64x16x256 ![] bcast_S_S64x16x256 main_cst
  let main_v2 : IVec S64x16x256 1 := cmpf .olt main_v0 main_v1
  let main_c : IVec S_ 1 := constantI S_ 1 1#1
  let main_v3 : IVec S_ 1 := (fun x v => Host.reduce IntOp.andi x v reducesTo_S64x16x256_S_d0_1_2 h_S_) main_v2 main_c
  let main_v4 : FVec F S64x16x65536 .f32 := Host.absf main_arg1
  let main_cst_0 : FVec F S_ .f32 := constant S_ .f32 0x7F800000#32
  let main_v5 : FVec F S64x16x65536 .f32 := broadcastInDim S64x16x65536 ![] bcast_S_S64x16x65536 main_cst_0
  let main_v6 : IVec S64x16x65536 1 := cmpf .olt main_v4 main_v5
  let main_c_1 : IVec S_ 1 := constantI S_ 1 1#1
  let main_v7 : IVec S_ 1 := (fun x v => Host.reduce IntOp.andi x v reducesTo_S64x16x65536_S_d0_1_2 h_S_) main_v6 main_c_1
  let main_v8 : IVec S_ 1 := andi main_v3 main_v7
  main_v8
-- ==== Kernel.lean ====
abbrev S64x16x256 : Shape := ⟨3, ![64, 16, 256]⟩
abbrev S64x16x65536 : Shape := ⟨3, ![64, 16, 65536]⟩
abbrev S2x16x256 : Shape := ⟨3, ![2, 16, 256]⟩
abbrev S2x16x65536 : Shape := ⟨3, ![2, 16, 65536]⟩
abbrev S2x16 : Shape := ⟨2, ![2, 16]⟩
abbrev S2x16x16 : Shape := ⟨3, ![2, 16, 16]⟩
abbrev S2x16x1 : Shape := ⟨3, ![2, 16, 1]⟩
abbrev S2x1x16 : Shape := ⟨3, ![2, 1, 16]⟩
abbrev S2x1x65536 : Shape := ⟨3, ![2, 1, 65536]⟩
abbrev S2x65536 : Shape := ⟨2, ![2, 65536]⟩

abbrev nBuf : Space → Nat
  | .hbm => 3
  | .vmem => 6
  | .smem => 0
  | _ => 0

abbrev bufTy : (tb : Table) → Fin (tcTables nBuf tb) → BufTy
  | .hbm, ⟨0, _⟩ => ⟨S64x16x256, .f32⟩
  | .hbm, ⟨1, _⟩ => ⟨S64x16x65536, .f32⟩
  | .hbm, ⟨2, _⟩ => ⟨S64x16x65536, .f32⟩
  | .local _ .vmem, ⟨0, _⟩ => ⟨S2x16x256, .f32⟩
  | .local _ .vmem, ⟨1, _⟩ => ⟨S2x16x256, .f32⟩
  | .local _ .vmem, ⟨2, _⟩ => ⟨S2x16x65536, .f32⟩
  | .local _ .vmem, ⟨3, _⟩ => ⟨S2x16x65536, .f32⟩
  | .local _ .vmem, ⟨4, _⟩ => ⟨S2x16x65536, .f32⟩
  | .local _ .vmem, ⟨5, _⟩ => ⟨S2x16x65536, .f32⟩
  | _, _ => ⟨S64x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x16x256_S2x16x256_0_0_0 : ∀ a, (![0, 0, 0] : Fin 3 → Nat) a + S2x16x256.size a ≤ S2x16x256.size a
  h_S2x16x256 : 0 < S2x16x256.numel
  reduces_S2x16x256_S2x16 : S2x16x256.Reduces [2] S2x16
  shapeCasts_S2x16_S2x16x1 : S2x16.ShapeCasts S2x16x1
  shapeCasts_S2x16_S2x1x16 : S2x16.ShapeCasts S2x1x16
  broadcasts_S2x16x1_S2x16x16 : S2x16x1.Broadcasts S2x16x16
  broadcasts_S2x1x16_S2x16x16 : S2x1x16.Broadcasts S2x16x16
  reduces_S2x16x16_S2x16 : S2x16x16.Reduces [2] S2x16
  inb_S2x16x65536_S2x16x65536_0_0_0 : ∀ a, (![0, 0, 0] : Fin 3 → Nat) a + S2x16x65536.size a ≤ S2x16x65536.size a
  h_S2x16x65536 : 0 < S2x16x65536.numel
  slices_S2x16x16_o0_0_0_S2x16x1 : S2x16x16.Slices ![0, 0, 0] S2x16x1
  shapeCasts_S2x16x1_S2x16 : S2x16x1.ShapeCasts S2x16
  slices_S2x16x65536_o0_0_0_S2x1x65536 : S2x16x65536.Slices ![0, 0, 0] S2x1x65536
  shapeCasts_S2x1x65536_S2x65536 : S2x1x65536.ShapeCasts S2x65536
  shapeCasts_S2x65536_S2x1x65536 : S2x65536.ShapeCasts S2x1x65536
  broadcasts_S2x16x1_S2x16x65536 : S2x16x1.Broadcasts S2x16x65536
  broadcasts_S2x1x65536_S2x16x65536 : S2x1x65536.Broadcasts S2x16x65536
  slices_S2x16x16_o0_0_1_S2x16x1 : S2x16x16.Slices ![0, 0, 1] S2x16x1
  slices_S2x16x65536_o0_1_0_S2x1x65536 : S2x16x65536.Slices ![0, 1, 0] S2x1x65536
  slices_S2x16x16_o0_0_2_S2x16x1 : S2x16x16.Slices ![0, 0, 2] S2x16x1
  slices_S2x16x65536_o0_2_0_S2x1x65536 : S2x16x65536.Slices ![0, 2, 0] S2x1x65536
  slices_S2x16x16_o0_0_3_S2x16x1 : S2x16x16.Slices ![0, 0, 3] S2x16x1
  slices_S2x16x65536_o0_3_0_S2x1x65536 : S2x16x65536.Slices ![0, 3, 0] S2x1x65536
  slices_S2x16x16_o0_0_4_S2x16x1 : S2x16x16.Slices ![0, 0, 4] S2x16x1
  slices_S2x16x65536_o0_4_0_S2x1x65536 : S2x16x65536.Slices ![0, 4, 0] S2x1x65536
  slices_S2x16x16_o0_0_5_S2x16x1 : S2x16x16.Slices ![0, 0, 5] S2x16x1
  slices_S2x16x65536_o0_5_0_S2x1x65536 : S2x16x65536.Slices ![0, 5, 0] S2x1x65536
  slices_S2x16x16_o0_0_6_S2x16x1 : S2x16x16.Slices ![0, 0, 6] S2x16x1
  slices_S2x16x65536_o0_6_0_S2x1x65536 : S2x16x65536.Slices ![0, 6, 0] S2x1x65536
  slices_S2x16x16_o0_0_7_S2x16x1 : S2x16x16.Slices ![0, 0, 7] S2x16x1
  slices_S2x16x65536_o0_7_0_S2x1x65536 : S2x16x65536.Slices ![0, 7, 0] S2x1x65536
  slices_S2x16x16_o0_0_8_S2x16x1 : S2x16x16.Slices ![0, 0, 8] S2x16x1
  slices_S2x16x65536_o0_8_0_S2x1x65536 : S2x16x65536.Slices ![0, 8, 0] S2x1x65536
  slices_S2x16x16_o0_0_9_S2x16x1 : S2x16x16.Slices ![0, 0, 9] S2x16x1
  slices_S2x16x65536_o0_9_0_S2x1x65536 : S2x16x65536.Slices ![0, 9, 0] S2x1x65536
  slices_S2x16x16_o0_0_10_S2x16x1 : S2x16x16.Slices ![0, 0, 10] S2x16x1
  slices_S2x16x65536_o0_10_0_S2x1x65536 : S2x16x65536.Slices ![0, 10, 0] S2x1x65536
  slices_S2x16x16_o0_0_11_S2x16x1 : S2x16x16.Slices ![0, 0, 11] S2x16x1
  slices_S2x16x65536_o0_11_0_S2x1x65536 : S2x16x65536.Slices ![0, 11, 0] S2x1x65536
  slices_S2x16x16_o0_0_12_S2x16x1 : S2x16x16.Slices ![0, 0, 12] S2x16x1
  slices_S2x16x65536_o0_12_0_S2x1x65536 : S2x16x65536.Slices ![0, 12, 0] S2x1x65536
  slices_S2x16x16_o0_0_13_S2x16x1 : S2x16x16.Slices ![0, 0, 13] S2x16x1
  slices_S2x16x65536_o0_13_0_S2x1x65536 : S2x16x65536.Slices ![0, 13, 0] S2x1x65536
  slices_S2x16x16_o0_0_14_S2x16x1 : S2x16x16.Slices ![0, 0, 14] S2x16x1
  slices_S2x16x65536_o0_14_0_S2x1x65536 : S2x16x65536.Slices ![0, 14, 0] S2x1x65536
  slices_S2x16x16_o0_0_15_S2x16x1 : S2x16x16.Slices ![0, 0, 15] S2x16x1
  slices_S2x16x65536_o0_15_0_S2x1x65536 : S2x16x65536.Slices ![0, 15, 0] S2x1x65536
  dot_S2x16x256_S2x16x256_S2x16x16_2_2_1_1_0_0_wf : DotDims.WF S2x16x256 S2x16x256 S2x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x256.size a ≤ S64x16x256.size a
  hwx0_0 : ∀ i : grid0.Coords, EltTy.bits .f32 = 32 ∨ (Rect.block (s := S64x16x256) S2x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x65536.size a ≤ S64x16x65536.size a
  hwx0_1 : ∀ i : grid0.Coords, EltTy.bits .f32 = 32 ∨ (Rect.block (s := S64x16x65536) S2x16x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x65536.size a ≤ S64x16x65536.size a
  hwx0_2 : ∀ i : grid0.Coords, EltTy.bits .f32 = 32 ∨ (Rect.block (s := S64x16x65536) S2x16x65536.size (cc0_transform_2 i) (hinb0_2 i)).WholeWords (EltTy.packing .f32)

variable [Facts₀]

def dot_S2x16x256_S2x16x256_S2x16x16_2_2_1_1_0_0 : DotDims S2x16x256 S2x16x256 S2x16x16 where
  lhsContracting := [2]
  rhsContracting := [2]
  lhsNonContracting := [1]
  rhsNonContracting := [1]
  lhsBatch := [0]
  rhsBatch := [0]
  wf := dot_S2x16x256_S2x16x256_S2x16x16_2_2_1_1_0_0_wf

abbrev win0_0 : Pipeline.Window sig grid0 :=
  Pipeline.Window.ofSpec (Memref.whole main_arg0) S2x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x16x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x256 : Shape := ⟨3, ![64, 16, 256]⟩
abbrev S64x16x65536 : Shape := ⟨3, ![64, 16, 65536]⟩
abbrev S_ : Shape := ⟨0, ![]⟩
abbrev S64x16 : Shape := ⟨2, ![64, 16]⟩
abbrev S64x16x16 : Shape := ⟨3, ![64, 16, 16]⟩
abbrev S64x16x1 : Shape := ⟨3, ![64, 16, 1]⟩
abbrev S64x1x16 : Shape := ⟨3, ![64, 1, 16]⟩

abbrev nBuf : Space → Nat
  | .hbm => 31
  | .vmem => 0
  | .smem => 0
  | _ => 0

abbrev bufTy : (tb : Table) → Fin (tcTables nBuf tb) → BufTy
  | .hbm, ⟨0, _⟩ => ⟨S64x16x256, .f32⟩
  | .hbm, ⟨1, _⟩ => ⟨S64x16x65536, .f32⟩
  | .hbm, ⟨2, _⟩ => ⟨S64x16x256, .f32⟩
  | .hbm, ⟨3, _⟩ => ⟨S_, .f32⟩
  | .hbm, ⟨4, _⟩ => ⟨S64x16, .f32⟩
  | .hbm, ⟨5, _⟩ => ⟨S64x16, .f32⟩
  | .hbm, ⟨6, _⟩ => ⟨S64x16x16, .f32⟩
  | .hbm, ⟨7, _⟩ => ⟨S64x16x1, .f32⟩
  | .hbm, ⟨8, _⟩ => ⟨S64x1x16, .f32⟩
  | .hbm, ⟨9, _⟩ => ⟨S64x16x16, .f32⟩
  | .hbm, ⟨10, _⟩ => ⟨S64x16x16, .f32⟩
  | .hbm, ⟨11, _⟩ => ⟨S64x16x16, .f32⟩
  | .hbm, ⟨12, _⟩ => ⟨S_, .f32⟩
  | .hbm, ⟨13, _⟩ => ⟨S64x16x16, .f32⟩
  | .hbm, ⟨14, _⟩ => ⟨S64x16x16, .f32⟩
  | .hbm, ⟨15, _⟩ => ⟨S64x16x16, .f32⟩
  | .hbm, ⟨16, _⟩ => ⟨S_, .f32⟩
  | .hbm, ⟨17, _⟩ => ⟨S64x16, .f32⟩
  | .hbm, ⟨18, _⟩ => ⟨S_, .f32⟩
  | .hbm, ⟨19, _⟩ => ⟨S64x16, .f32⟩
  | .hbm, ⟨20, _⟩ => ⟨S64x16, .f32⟩
  | .hbm, ⟨21, _⟩ => ⟨S64x16x1, .f32⟩
  | .hbm, ⟨22, _⟩ => ⟨S64x16x16, .f32⟩
  | .hbm, ⟨23, _⟩ => ⟨S64x16x16, .f32⟩
  | .hbm, ⟨24, _⟩ => ⟨S64x16x16, .f32⟩
  | .hbm, ⟨25, _⟩ => ⟨S_, .f32⟩
  | .hbm, ⟨26, _⟩ => ⟨S64x16, .f32⟩
  | .hbm, ⟨27, _⟩ => ⟨S64x16x1, .f32⟩
  | .hbm, ⟨28, _⟩ => ⟨S64x16x16, .f32⟩
  | .hbm, ⟨29, _⟩ => ⟨S64x16x16, .f32⟩
  | .hbm, ⟨30, _⟩ => ⟨S64x16x65536, .f32⟩
  | _, _ => ⟨S64x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x16x256_S64x16_d2 : S64x16x256.ReducesTo [2] S64x16
  h_S_ : 0 < S_.numel
  bcast_S64x16_S64x16x1_0_1 : S64x16.BroadcastsInDim S64x16x1 (![0, 1] : Fin 2 → Fin S64x16x1.rank)
  bcast_S64x16_S64x1x16_0_2 : S64x16.BroadcastsInDim S64x1x16 (![0, 2] : Fin 2 → Fin S64x1x16.rank)
  bcast_S64x16x1_S64x16x16_0_1_2 : S64x16x1.BroadcastsInDim S64x16x16 (![0, 1, 2] : Fin 3 → Fin S64x16x16.rank)
  bcast_S64x1x16_S64x16x16_0_1_2 : S64x1x16.BroadcastsInDim S64x16x16 (![0, 1, 2] : Fin 3 → Fin S64x16x16.rank)
  bcast_S_S64x16x16 : S_.BroadcastsInDim S64x16x16 (![] : Fin 0 → Fin S64x16x16.rank)
  reducesTo_S64x16x16_S64x16_d2 : S64x16x16.ReducesTo [2] S64x16
  bcast_S_S64x16 : S_.BroadcastsInDim S64x16 (![] : Fin 0 → Fin S64x16.rank)
  dot_S64x16x256_S64x16x256_S64x16x16_2_2_1_1_0_0_wf : DotDims.WF S64x16x256 S64x16x256 S64x16x16 [2] [2] [1] [1] [0] [0]
  dot_S64x16x16_S64x16x65536_S64x16x65536_2_1_1_2_0_0_wf : DotDims.WF S64x16x16 S64x16x65536 S64x16x65536 [2] [1] [1] [2] [0] [0]

variable [Facts₀]

def dot_S64x16x256_S64x16x256_S64x16x16_2_2_1_1_0_0 : DotDims S64x16x256 S64x16x256 S64x16x16 where
  lhsContracting := [2]
  rhsContracting := [2]
  lhsNonContracting := [1]
  rhsNonContracting := [1]
  lhsBatch := [0]
  rhsBatch := [0]
  wf := dot_S64x16x256_S64x16x256_S64x16x16_2_2_1_1_0_0_wf
def dot_S64x16x16_S64x16x65536_S64x16x65536_2_1_1_2_0_0 : DotDims S64x16x16 S64x16x65536 S64x16x65536 where
  lhsContracting := [2]
  rhsContracting := [1]
  lhsNonContracting := [1]
  rhsNonContracting := [2]
  lhsBatch := [0]
  rhsBatch := [0]
  wf := dot_S64x16x16_S64x16x65536_S64x16x65536_2_1_1_2_0_0_wf

class Facts : Prop extends Facts₀ where

variable [Facts]
-- ==== Proof.Spec.lean ====
/-
  Cosine-similarity attention inside one clique of sixteen members, and the aggregation it weights.

  A clique's members carry representation vectors `r i : Fin 256 → EReal` (`i : Fin 16`). Member `i` attends to
  member `j` with the weight

      weight r i j = exp (s i j − M i) / Σ_k exp (s i k − M i),
      s i j = ⟨r i, r j⟩ / (‖r i‖ · ‖r j‖ + ε),      M i = max_j s i j   (a maximum taken from −∞),

  a softmax over `j` of the cosine similarities, and a parameter array `p` is aggregated along the clique:

      aggregate x p c i q = Σ_j weight (clique c of x) i j · p (c, j, q).

  Everything is read on the extended reals with the exact operations (division, square root and exponential with
  their conventions at the infinities), so each definition below is a closed expression of the clique's vectors and no
  finiteness is assumed anywhere. Both programs of this certificate compute `aggregate`: one as sixteen
  multiply-and-add steps onto a zero array, the other as one contraction over `j`; `sum_fin16` is the law between the
  two arrangements (addition on the extended reals is commutative and associative, and `0` is its unit).
-/
import Idealize.ShloMosaic.PureOps.Ideal.Laws
import Idealize.ShloMosaic.Lib.ValueIdx

noncomputable section

namespace Cert.CliqueAttention

open Idealize.ShloMosaic Idealize.ShloMosaic.ValueIdx

/-- One clique's representation vectors: sixteen members, 256 coordinates each. -/
abbrev Reps := Fin 16 → Fin 256 → EReal

/-- The similarity's regulariser, the binary32 number nearest to 1e-8, as the real number that word denotes. -/
def eps : EReal := Ideal.ofBits .f32 0x322BCC77#32

/-- The value both maxima start from: the word of −∞. -/
def negInf : EReal := Ideal.ofBits .f32 0xFF800000#32

section OneClique

variable (r : Reps)

/-- The Euclidean norm of member `i`'s vector. -/
def repNorm (i : Fin 16) : EReal := Ideal.sqrt (∑ d : Fin 256, r i d * r i d)

/-- The inner product of members `i` and `j`. -/
def repDot (i j : Fin 16) : EReal := ∑ d : Fin 256, r i d * r j d

/-- The regularised cosine similarity of members `i` and `j`. -/
def cosSim (i j : Fin 16) : EReal := Ideal.div (repDot r i j) (repNorm r i * repNorm r j + eps)

/-- Row `i`'s largest similarity, taken from −∞ (and once more against −∞, which changes nothing). -/
def simMax (i : Fin 16) : EReal :=
  max negInf ((Finset.univ : Finset (Fin 16)).fold max negInf fun j => cosSim r i j)

/-- The shifted exponential of a similarity. -/
def expShift (i j : Fin 16) : EReal := Ideal.exp (cosSim r i j - simMax r i)

/-- Row `i`'s normaliser. -/
def expSum (i : Fin 16) : EReal := ∑ j : Fin 16, expShift r i j

/-- The attention weight of member `i` on member `j`. -/
def weight (i j : Fin 16) : EReal := Ideal.div (expShift r i j) (expSum r i)

end OneClique

/-- Clique `c` of an array of `n` cliques. -/
def cliqueOf {n : ℕ} (x : (⟨3, ![n, 16, 256]⟩ : Shape).Idx → EReal) (c : Fin n) : Reps := fun i d => x (ix3 c i d)

/-- Member `i` of clique `c` receives, at parameter coordinate `q`, the weighted sum of the clique's parameters. -/
def aggregate {n : ℕ} (x : (⟨3, ![n, 16, 256]⟩ : Shape).Idx → EReal) (p : (⟨3, ![n, 16, 65536]⟩ : Shape).Idx → EReal)
    (c : Fin n) (i : Fin 16) (q : Fin 65536) : EReal :=
  ∑ j : Fin 16, weight (cliqueOf x c) i j * p (ix3 c j q)

/-- The whole result array over 64 cliques, index by index. -/
def result (x : (⟨3, ![64, 16, 256]⟩ : Shape).Idx → EReal) (p : (⟨3, ![64, 16, 65536]⟩ : Shape).Idx → EReal) :
    (⟨3, ![64, 16, 65536]⟩ : Shape).Idx → EReal :=
  fun o => aggregate x p ⟨(o 0).val, (o 0).isLt⟩ ⟨(o 1).val, (o 1).isLt⟩ ⟨(o 2).val, (o 2).isLt⟩

theorem result_apply (x : (⟨3, ![64, 16, 256]⟩ : Shape).Idx → EReal) (p : (⟨3, ![64, 16, 65536]⟩ : Shape).Idx → EReal)
    (c : Fin 64) (i : Fin 16) (q : Fin 65536) : result x p (ix3 c i q) = aggregate x p c i q := rfl

/-- Sixteen terms added one after the other onto zero are their sum: the sum over `Fin (n + 1)` is the sum over `Fin n`
    plus the last term, sixteen times, and the empty sum is zero. -/
theorem sum_fin16 (f : Fin 16 → EReal) :
    0 + f 0 + f 1 + f 2 + f 3 + f 4 + f 5 + f 6 + f 7 + f 8 + f 9 + f 10 + f 11 + f 12 + f 13 + f 14 + f 15 = ∑ j, f j := by
  simp only [Fin.sum_univ_castSucc, Fin.sum_univ_zero]
  rfl

end Cert.CliqueAttention

end
-- ==== Proof.LibKeepdims.lean ====
/-
  Layout operations that keep a reduced axis as a unit axis, read at an index given by coordinates.

  A row statistic of an `[a, b]` array (a norm, a maximum, a sum over the last axis of an `[a, b, c]` array) is put
  back beside the array it came from in two steps: a shape cast that inserts a unit axis (`[a, b] → [a, b, 1]` for a
  statistic indexed by the row, `[a, b] → [a, 1, b]` for one indexed by the column), and a broadcast that repeats it
  along that unit axis. Read at `(p, q, r)`, the four operations below return the operand at `(p, q)`, `(p, q)`,
  `(p, q, 0)` and `(p, 0, r)`: the row-major positions agree because the inserted axis has extent one, and a broadcast
  reads coordinate `0` on every unit axis of its operand.
-/
import Idealize.ShloMosaic.Lib.Pipeline.Value
import Idealize.ShloMosaic.Lib.ValueIdx

namespace Cert.Keepdims

open Idealize.ShloMosaic Idealize.ShloMosaic.ValueIdx

variable {α : Type}

/-- An `[a, b]` array cast to `[a, b, 1]` reads, at `(p, q, u)`, the operand at `(p, q)`: the position
    `(p·b + q)·1 + u` is `p·b + q` since `u = 0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b]` array cast to `[a, 1, b]` reads, at `(p, u, q)`, the operand at `(p, q)`: the position
    `(p·1 + u)·b + q` is `p·b + q` since `u = 0`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, b, 1]` array broadcast to `[a, b, c]` reads, at `(p, q, r)`, the operand at `(p, q, 0)`: every entry of
    row `(p, q)` is that row's one value. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, the operand at `(p, 0, r)`: every row `q` of
    slab `p` is that slab's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Cert.Keepdims
-- ==== Proof.KernelWeights.lean ====
/-
  The kernel's attention weights on one block of two cliques, read index by index.

  The body computes, from the block `v` of representation vectors it loaded (two cliques, sixteen members, 256
  coordinates): the row norms (a lane sum of squares, then a square root), all pairwise inner products (one matrix product
  into a zero accumulator, contracted over the 256 coordinates), the similarity (the norms put back as a column and
  as a row and multiplied, plus ε, dividing the products), the row maximum from −∞, the shifted exponentials, their
  lane sum, and the quotient. The stages are named here in the body's own order; the body's weights are their last
  stage by unfolding alone, and read at `(c, i, j)` each stage is the quantity of `Cert.CliqueAttention` at clique `c` of
  the block: a lane sum is the sum over the last coordinate, the matrix product is the sum over the contracted one,
  and the casts and broadcasts only repeat a row statistic along the unit axis they insert.
-/
import proofs.«161778_j49168785604634_2_alg».proof.Proof.Gen.KernelIdeal.Skeleton
import proofs.«161778_j49168785604634_2_alg».proof.Proof.Spec
import proofs.«161778_j49168785604634_2_alg».proof.Proof.LibKeepdims
import Idealize.ShloMosaic.Lib.ValueIdx
import Idealize.ShloMosaic.PureOps.Ideal.Laws

noncomputable section

namespace Cert.KernelIdeal.Weights

open Cert.KernelIdeal Cert.KernelIdeal.Gen Idealize.ShloMosaic Idealize.ShloMosaic.ValueIdx
open Cert.CliqueAttention Cert.Keepdims

/-! ## The stages, at any float instance -/

section Stages

variable {F : FTy → Type} [FloatOps F] (v : Vec F S2x16x256 .f32)

/-- The row norms. -/
def stNorm : FVec F S2x16 .f32 :=
  sqrt (multiReduction .add [2] S2x16 (mulf v v) 0x00000000#32 reduces_S2x16x256_S2x16 (.inl rfl) rfl)

/-- The similarities. -/
def stSim : FVec F S2x16x16 .f32 :=
  divf (matmul dot_S2x16x256_S2x16x256_S2x16x16_2_2_1_1_0_0 (some .fp32) v v (constant S2x16x16 .f32 0x00000000#32))
    (addf (mulf (broadcastTo S2x16x16 (shapeCast S2x16x1 (stNorm v) shapeCasts_S2x16_S2x16x1) broadcasts_S2x16x1_S2x16x16)
        (broadcastTo S2x16x16 (shapeCast S2x1x16 (stNorm v) shapeCasts_S2x16_S2x1x16) broadcasts_S2x1x16_S2x16x16))
      (broadcast S2x16x16 (Scalar.ofBits .f32 0x322BCC77#32)))

/-- The row maxima. -/
def stMax : FVec F S2x16 .f32 :=
  maximumf (broadcast S2x16 (Scalar.ofBits .f32 0xFF800000#32))
    (multiReduction .maximumf [2] S2x16 (stSim v) 0xFF800000#32 reduces_S2x16x16_S2x16 (.inl rfl) rfl)

/-- The shifted exponentials. -/
def stExp : FVec F S2x16x16 .f32 :=
  exp (subf (stSim v) (broadcastTo S2x16x16 (shapeCast S2x16x1 (stMax v) shapeCasts_S2x16_S2x16x1) broadcasts_S2x16x1_S2x16x16))

/-- The row sums of the exponentials. -/
def stSum : FVec F S2x16 .f32 :=
  multiReduction .add [2] S2x16 (stExp v) 0x00000000#32 reduces_S2x16x16_S2x16 (.inl rfl) rfl

/-- The body's weights are the exponentials over their row sums. -/
theorem pay2_eq_stages : k0_pay2 v
    = divf (stExp v) (broadcastTo S2x16x16 (shapeCast S2x16x1 (stSum v) shapeCasts_S2x16_S2x16x1) broadcasts_S2x16x1_S2x16x16) := rfl

end Stages

/-! ## A row statistic put back beside its array -/

/-- A `[2, 16]` statistic cast to a column and broadcast along the last axis reads, at `(c, i, j)`, the statistic at `(c, i)`. -/
theorem column_apply {α : Type} (s : S2x16.Idx → α) (h : S2x16.ShapeCasts S2x16x1) (h' : S2x16x1.Broadcasts S2x16x16)
    (c : Fin 2) (i j : Fin 16) : broadcastTo S2x16x16 (shapeCast S2x16x1 s h) h' (ix3 c i j) = s (ix2 c i) :=
  (broadcastTo_ab1_abc_apply _ h' c i j).trans (shapeCast_ab_ab1_apply s h c i 0)

/-- Cast to a row and broadcast along the middle axis it reads, at `(c, i, j)`, the statistic at `(c, j)`. -/
theorem row_apply {α : Type} (s : S2x16.Idx → α) (h : S2x16.ShapeCasts S2x1x16) (h' : S2x1x16.Broadcasts S2x16x16)
    (c : Fin 2) (i j : Fin 16) : broadcastTo S2x16x16 (shapeCast S2x1x16 s h) h' (ix3 c i j) = s (ix2 c j) :=
  (broadcastTo_a1c_abc_apply _ h' c i j).trans (shapeCast_ab_a1b_apply s h c 0 j)

/-! ## The matrix product's operand indices -/

theorem lhs_0 (i : S2x16x16.Idx) (q : dot_S2x16x256_S2x16x256_S2x16x16_2_2_1_1_0_0.contr.Idx) : (dot_S2x16x256_S2x16x256_S2x16x16_2_2_1_1_0_0.lhsIdx i q 0).val = (i 0).val := by
  unfold DotDims.lhsIdx
  rw [dif_pos (show (0 : Fin S2x16x256.rank) ∈ dot_S2x16x256_S2x16x256_S2x16x16_2_2_1_1_0_0.lhsBatch by decide)]
  rfl
theorem lhs_1 (i : S2x16x16.Idx) (q : dot_S2x16x256_S2x16x256_S2x16x16_2_2_1_1_0_0.contr.Idx) : (dot_S2x16x256_S2x16x256_S2x16x16_2_2_1_1_0_0.lhsIdx i q 1).val = (i 1).val := by
  unfold DotDims.lhsIdx
  rw [dif_neg (show ¬(1 : Fin S2x16x256.rank) ∈ dot_S2x16x256_S2x16x256_S2x16x16_2_2_1_1_0_0.lhsBatch by decide),
    dif_pos (show (1 : Fin S2x16x256.rank) ∈ dot_S2x16x256_S2x16x256_S2x16x16_2_2_1_1_0_0.lhsNonContracting by decide)]
  rfl
theorem lhs_2 (i : S2x16x16.Idx) (q : dot_S2x16x256_S2x16x256_S2x16x16_2_2_1_1_0_0.contr.Idx) : (dot_S2x16x256_S2x16x256_S2x16x16_2_2_1_1_0_0.lhsIdx i q 2).val = (q ⟨0, by decide⟩).val :=
  dot_S2x16x256_S2x16x256_S2x16x16_2_2_1_1_0_0.lhsIdx_val_of_single rfl i q
theorem rhs_0 (i : S2x16x16.Idx) (q : dot_S2x16x256_S2x16x256_S2x16x16_2_2_1_1_0_0.contr.Idx) : (dot_S2x16x256_S2x16x256_S2x16x16_2_2_1_1_0_0.rhsIdx i q 0).val = (i 0).val := by
  unfold DotDims.rhsIdx
  rw [dif_pos (show (0 : Fin S2x16x256.rank) ∈ dot_S2x16x256_S2x16x256_S2x16x16_2_2_1_1_0_0.rhsBatch by decide)]
  rfl
theorem rhs_1 (i : S2x16x16.Idx) (q : dot_S2x16x256_S2x16x256_S2x16x16_2_2_1_1_0_0.contr.Idx) : (dot_S2x16x256_S2x16x256_S2x16x16_2_2_1_1_0_0.rhsIdx i q 1).val = (i 2).val := by
  unfold DotDims.rhsIdx
  rw [dif_neg (show ¬(1 : Fin S2x16x256.rank) ∈ dot_S2x16x256_S2x16x256_S2x16x16_2_2_1_1_0_0.rhsBatch by decide),
    dif_pos (show (1 : Fin S2x16x256.rank) ∈ dot_S2x16x256_S2x16x256_S2x16x16_2_2_1_1_0_0.rhsNonContracting by decide)]
  rfl
theorem rhs_2 (i : S2x16x16.Idx) (q : dot_S2x16x256_S2x16x256_S2x16x16_2_2_1_1_0_0.contr.Idx) : (dot_S2x16x256_S2x16x256_S2x16x16_2_2_1_1_0_0.rhsIdx i q 2).val = (q ⟨0, by decide⟩).val :=
  dot_S2x16x256_S2x16x256_S2x16x16_2_2_1_1_0_0.rhsIdx_val_of_single rfl i q

/-- The matrix product of the block with itself into zero, at `(c, i, j)`: the inner product of rows `i` and `j` of clique `c`. -/
theorem gram_apply (v : Vec Ideal S2x16x256 .f32) (c : Fin 2) (i j : Fin 16) :
    matmul (F := Ideal) (φ₁ := .f32) (φ₂ := .f32) dot_S2x16x256_S2x16x256_S2x16x16_2_2_1_1_0_0 (some .fp32) v v (constant S2x16x16 .f32 0x00000000#32) (ix3 c i j) = repDot (cliqueOf v c) i j := by
  simp only [matmul]
  rw [Ideal.matmul_constant_zero_apply, ← Equiv.sum_comp (contrEquiv1 dot_S2x16x256_S2x16x256_S2x16x16_2_2_1_1_0_0 256 rfl rfl).symm]
  refine Finset.sum_congr rfl fun k _ => ?_
  have hk := contrEquiv1_symm_val dot_S2x16x256_S2x16x256_S2x16x16_2_2_1_1_0_0 256 rfl rfl k
  have el : dot_S2x16x256_S2x16x256_S2x16x16_2_2_1_1_0_0.lhsIdx (ix3 c i j) ((contrEquiv1 dot_S2x16x256_S2x16x256_S2x16x16_2_2_1_1_0_0 256 rfl rfl).symm k) = ix3 c i k := funext fun a => Fin.ext (by
    match a with
    | ⟨0, _⟩ => exact lhs_0 _ _
    | ⟨1, _⟩ => exact lhs_1 _ _
    | ⟨2, _⟩ => exact (lhs_2 _ _).trans hk)
  have er : dot_S2x16x256_S2x16x256_S2x16x16_2_2_1_1_0_0.rhsIdx (ix3 c i j) ((contrEquiv1 dot_S2x16x256_S2x16x256_S2x16x16_2_2_1_1_0_0 256 rfl rfl).symm k) = ix3 c j k := funext fun a => Fin.ext (by
    match a with
    | ⟨0, _⟩ => exact rhs_0 _ _
    | ⟨1, _⟩ => exact rhs_1 _ _
    | ⟨2, _⟩ => exact (rhs_2 _ _).trans hk)
  rw [el, er]
  rfl

/-! ## The stages at an index, on the extended reals -/

variable (v : Vec Ideal S2x16x256 .f32)

theorem stNorm_apply (c : Fin 2) (i : Fin 16) : stNorm v (ix2 c i) = repNorm (cliqueOf v c) i := by
  have e : ∀ k : Fin 256, reduces_S2x16x256_S2x16.lift (ix2 c i) k = ix3 c i k := fun k => funext fun a => by
    match a with | ⟨0, _⟩ => rfl | ⟨1, _⟩ => rfl | ⟨2, _⟩ => rfl
  refine congrArg Ideal.sqrt ((Ideal.multiReduction_add_single (mulf v v) 0x00000000#32 reduces_S2x16x256_S2x16 (.inl rfl) rfl
    (ix2 c i)).trans ?_)
  refine Finset.sum_congr rfl fun (k : Fin 256) _ => ?_
  exact congrArg (fun o => v o * v o) (e k)

theorem stSim_apply (c : Fin 2) (i j : Fin 16) : stSim v (ix3 c i j) = cosSim (cliqueOf v c) i j := by
  show Ideal.div (matmul (F := Ideal) (φ₁ := .f32) (φ₂ := .f32) dot_S2x16x256_S2x16x256_S2x16x16_2_2_1_1_0_0 (some .fp32) v v (constant S2x16x16 .f32 0x00000000#32) (ix3 c i j))
    (broadcastTo S2x16x16 (shapeCast S2x16x1 (stNorm v) shapeCasts_S2x16_S2x16x1) broadcasts_S2x16x1_S2x16x16 (ix3 c i j)
      * broadcastTo S2x16x16 (shapeCast S2x1x16 (stNorm v) shapeCasts_S2x16_S2x1x16) broadcasts_S2x1x16_S2x16x16 (ix3 c i j)
      + Ideal.ofBits .f32 0x322BCC77#32) = _
  rw [gram_apply, column_apply, row_apply, stNorm_apply, stNorm_apply]
  rfl

theorem stMax_apply (c : Fin 2) (i : Fin 16) : stMax v (ix2 c i) = simMax (cliqueOf v c) i := by
  have e : ∀ k : Fin 16, reduces_S2x16x16_S2x16.lift (ix2 c i) k = ix3 c i k := fun k => funext fun a => by
    match a with | ⟨0, _⟩ => rfl | ⟨1, _⟩ => rfl | ⟨2, _⟩ => rfl
  refine congrArg (max negInf) ((Ideal.multiReduction_maximumf_single (stSim v) 0xFF800000#32 reduces_S2x16x16_S2x16 (.inl rfl) rfl
    (ix2 c i)).trans ?_)
  refine congrArg (fun f => (Finset.univ : Finset (Fin 16)).fold max negInf f) (funext fun (k : Fin 16) => ?_)
  exact (congrArg (stSim v) (e k)).trans (stSim_apply v c i k)

theorem stExp_apply (c : Fin 2) (i j : Fin 16) : stExp v (ix3 c i j) = expShift (cliqueOf v c) i j := by
  show Ideal.exp (stSim v (ix3 c i j)
    - broadcastTo S2x16x16 (shapeCast S2x16x1 (stMax v) shapeCasts_S2x16_S2x16x1) broadcasts_S2x16x1_S2x16x16 (ix3 c i j)) = _
  rw [column_apply, stSim_apply, stMax_apply]
  rfl

theorem stSum_apply (c : Fin 2) (i : Fin 16) : stSum v (ix2 c i) = expSum (cliqueOf v c) i := by
  have e : ∀ k : Fin 16, reduces_S2x16x16_S2x16.lift (ix2 c i) k = ix3 c i k := fun k => funext fun a => by
    match a with | ⟨0, _⟩ => rfl | ⟨1, _⟩ => rfl | ⟨2, _⟩ => rfl
  refine (Ideal.multiReduction_add_single (stExp v) 0x00000000#32 reduces_S2x16x16_S2x16 (.inl rfl) rfl (ix2 c i)).trans ?_
  refine Finset.sum_congr rfl fun (k : Fin 16) _ => ?_
  exact (congrArg (stExp v) (e k)).trans (stExp_apply v c i k)

/-- The body's weights at `(c, i, j)`: the attention weight of member `i` on member `j` in clique `c` of the block. -/
theorem pay2_apply (c : Fin 2) (i j : Fin 16) : k0_pay2 v (ix3 c i j) = weight (cliqueOf v c) i j := by
  rw [pay2_eq_stages]
  show Ideal.div (stExp v (ix3 c i j))
    (broadcastTo S2x16x16 (shapeCast S2x16x1 (stSum v) shapeCasts_S2x16_S2x16x1) broadcasts_S2x16x1_S2x16x16 (ix3 c i j)) = _
  rw [column_apply, stExp_apply, stSum_apply]
  rfl

end Cert.KernelIdeal.Weights

end
-- ==== Proof.KernelAccumulate.lean ====
/-
  The kernel's aggregation: sixteen multiply-and-add steps onto a zero array, read index by index.

  Step `n` takes column `n` of the weights (a slice, squeezed and put back as a column) and row `n` of the parameter
  block (a slice, squeezed and put back as a row), broadcasts both to the block's shape, multiplies them and adds the
  product onto what the steps before left. Read at `(c, i, q)` one step adds `w (c, i, n) · p (c, n, q)`; the sixteen
  steps, started from the zero array, leave `Σ_n w (c, i, n) · p (c, n, q)`.
-/
import proofs.«161778_j49168785604634_2_alg».proof.Proof.Gen.KernelIdeal.Skeleton
import proofs.«161778_j49168785604634_2_alg».proof.Proof.Spec
import proofs.«161778_j49168785604634_2_alg».proof.Proof.LibKeepdims
import Idealize.ShloMosaic.Lib.ValueIdx
import Idealize.ShloMosaic.PureOps.Ideal.Laws

noncomputable section

namespace Cert.KernelIdeal.Accumulate

open Cert.KernelIdeal Cert.KernelIdeal.Gen Idealize.ShloMosaic Idealize.ShloMosaic.ValueIdx
open Cert.CliqueAttention Cert.Keepdims

variable (w : FVec Ideal S2x16x16 .f32) (p : Vec Ideal S2x16x65536 .f32)

/-- Column `n` of the weights, squeezed, put back as a column and broadcast over the parameter axis: at `(c, i, q)` it
    is `w (c, i, n)`. -/
theorem weight_column_apply (n : ℕ) (hn : n < 16) (hs : S2x16x16.Slices ![0, 0, n] S2x16x1) (c : Fin 2) (i : Fin 16) (q : Fin 65536) :
    broadcastTo S2x16x65536 (shapeCast S2x16x1 (shapeCast S2x16 (extractStridedSlice S2x16x1 ![0, 0, n] w hs)
      shapeCasts_S2x16x1_S2x16) shapeCasts_S2x16_S2x16x1) broadcasts_S2x16x1_S2x16x65536 (ix3 c i q) = w (ix3 c i ⟨n, hn⟩) := by
  rw [shapeCast_shapeCast]
  refine (broadcastTo_ab1_abc_apply _ broadcasts_S2x16x1_S2x16x65536 c i q).trans ?_
  refine extractStridedSlice_apply _ w hs (ix3 c i (0 : Fin 1)) (ix3 c i ⟨n, hn⟩) fun a => ?_
  match a with
  | ⟨0, _⟩ => show c.val = 0 + c.val; omega
  | ⟨1, _⟩ => show i.val = 0 + i.val; omega
  | ⟨2, _⟩ => show n = n + 0; omega

/-- Row `n` of the parameter block, squeezed, put back as a row and broadcast over the members: at `(c, i, q)` it is
    `p (c, n, q)`. -/
theorem param_row_apply (n : ℕ) (hn : n < 16) (hp : S2x16x65536.Slices ![0, n, 0] S2x1x65536) (c : Fin 2) (i : Fin 16) (q : Fin 65536) :
    broadcastTo S2x16x65536 (shapeCast S2x1x65536 (shapeCast S2x65536 (extractStridedSlice S2x1x65536 ![0, n, 0] p hp)
      shapeCasts_S2x1x65536_S2x65536) shapeCasts_S2x65536_S2x1x65536) broadcasts_S2x1x65536_S2x16x65536 (ix3 c i q) = p (ix3 c ⟨n, hn⟩ q) := by
  rw [shapeCast_shapeCast]
  refine (broadcastTo_a1c_abc_apply _ broadcasts_S2x1x65536_S2x16x65536 c i q).trans ?_
  refine extractStridedSlice_apply _ p hp (ix3 c (0 : Fin 1) q) (ix3 c ⟨n, hn⟩ q) fun a => ?_
  match a with
  | ⟨0, _⟩ => show c.val = 0 + c.val; omega
  | ⟨1, _⟩ => show n = n + 0; omega
  | ⟨2, _⟩ => show q.val = 0 + q.val; omega

/-- One step of the aggregation at `(c, i, q)`. -/
theorem step_apply (acc : FVec Ideal S2x16x65536 .f32) (n : ℕ) (hn : n < 16) (hs : S2x16x16.Slices ![0, 0, n] S2x16x1)
    (hp : S2x16x65536.Slices ![0, n, 0] S2x1x65536) (c : Fin 2) (i : Fin 16) (q : Fin 65536) :
    addf acc (mulf
      (broadcastTo S2x16x65536 (shapeCast S2x16x1 (shapeCast S2x16 (extractStridedSlice S2x16x1 ![0, 0, n] w hs)
        shapeCasts_S2x16x1_S2x16) shapeCasts_S2x16_S2x16x1) broadcasts_S2x16x1_S2x16x65536)
      (broadcastTo S2x16x65536 (shapeCast S2x1x65536 (shapeCast S2x65536 (extractStridedSlice S2x1x65536 ![0, n, 0] p hp)
        shapeCasts_S2x1x65536_S2x65536) shapeCasts_S2x65536_S2x1x65536) broadcasts_S2x1x65536_S2x16x65536)) (ix3 c i q)
      = acc (ix3 c i q) + w (ix3 c i ⟨n, hn⟩) * p (ix3 c ⟨n, hn⟩ q) := by
  show acc (ix3 c i q) + _ * _ = _
  rw [weight_column_apply w n hn hs c i q, param_row_apply p n hn hp c i q]

variable (c : Fin 2) (i : Fin 16) (q : Fin 65536)

/-- Steps 0 and 1, from the zero array. -/
theorem first_steps (v : Vec Ideal S2x16x256 .f32) :
    k0_pay3 v p (ix3 c i q) = 0 + k0_pay2 v (ix3 c i 0) * p (ix3 c 0 q) + k0_pay2 v (ix3 c i 1) * p (ix3 c 1 q) := by
  unfold k0_pay3
  refine (step_apply (k0_pay2 v) p _ 1 (by decide) _ _ c i q).trans ?_
  refine congrArg (· + _) ((step_apply (k0_pay2 v) p _ 0 (by decide) _ _ c i q).trans ?_)
  exact congrArg (· + _) Ideal.ofBits_zero_f32

/-- Steps 2 to 7. -/
theorem steps_2_7 (acc : FVec Ideal S2x16x65536 .f32) :
    k0_pay4 w p acc (ix3 c i q) = acc (ix3 c i q) + w (ix3 c i 2) * p (ix3 c 2 q) + w (ix3 c i 3) * p (ix3 c 3 q) + w (ix3 c i 4) * p (ix3 c 4 q) + w (ix3 c i 5) * p (ix3 c 5 q) + w (ix3 c i 6) * p (ix3 c 6 q) + w (ix3 c i 7) * p (ix3 c 7 q) := by
  unfold k0_pay4
  refine (step_apply w p _ 7 (by decide) _ _ c i q).trans (congrArg (· + _) ?_)
  refine (step_apply w p _ 6 (by decide) _ _ c i q).trans (congrArg (· + _) ?_)
  refine (step_apply w p _ 5 (by decide) _ _ c i q).trans (congrArg (· + _) ?_)
  refine (step_apply w p _ 4 (by decide) _ _ c i q).trans (congrArg (· + _) ?_)
  refine (step_apply w p _ 3 (by decide) _ _ c i q).trans (congrArg (· + _) ?_)
  exact step_apply w p _ 2 (by decide) _ _ c i q

/-- Steps 8 to 13. -/
theorem steps_8_13 (acc : FVec Ideal S2x16x65536 .f32) :
    k0_pay5 w p acc (ix3 c i q) = acc (ix3 c i q) + w (ix3 c i 8) * p (ix3 c 8 q) + w (ix3 c i 9) * p (ix3 c 9 q) + w (ix3 c i 10) * p (ix3 c 10 q) + w (ix3 c i 11) * p (ix3 c 11 q) + w (ix3 c i 12) * p (ix3 c 12 q) + w (ix3 c i 13) * p (ix3 c 13 q) := by
  unfold k0_pay5
  refine (step_apply w p _ 13 (by decide) _ _ c i q).trans (congrArg (· + _) ?_)
  refine (step_apply w p _ 12 (by decide) _ _ c i q).trans (congrArg (· + _) ?_)
  refine (step_apply w p _ 11 (by decide) _ _ c i q).trans (congrArg (· + _) ?_)
  refine (step_apply w p _ 10 (by decide) _ _ c i q).trans (congrArg (· + _) ?_)
  refine (step_apply w p _ 9 (by decide) _ _ c i q).trans (congrArg (· + _) ?_)
  exact step_apply w p _ 8 (by decide) _ _ c i q

/-- Steps 14 and 15. -/
theorem last_steps (acc : FVec Ideal S2x16x65536 .f32) :
    k0_pay1 w p acc (ix3 c i q) = acc (ix3 c i q) + w (ix3 c i 14) * p (ix3 c 14 q) + w (ix3 c i 15) * p (ix3 c 15 q) := by
  unfold k0_pay1
  refine (step_apply w p _ 15 (by decide) _ _ c i q).trans (congrArg (· + _) ?_)
  exact step_apply w p _ 14 (by decide) _ _ c i q

/-- The value the body stores, at `(c, i, q)`: the weights of member `i` of clique `c` of the block against column `q`
    of that clique's parameters. -/
theorem stored_apply (v : Vec Ideal S2x16x256 .f32) :
    k0_pay1 (k0_pay2 v) p (k0_pay5 (k0_pay2 v) p (k0_pay4 (k0_pay2 v) p (k0_pay3 v p))) (ix3 c i q)
      = ∑ j : Fin 16, k0_pay2 v (ix3 c i j) * p (ix3 c j q) := by
  rw [last_steps, steps_8_13, steps_2_7, first_steps]
  exact sum_fin16 fun j => k0_pay2 v (ix3 c i j) * p (ix3 c j q)

end Cert.KernelIdeal.Accumulate

end
-- ==== Proof.KernelValue.lean ====
/-
  The kernel's result array: what each grid point writes back, and the array after the last point.

  Grid point `t` (of 32) stages cliques `2t` and `2t + 1` of both arguments, and writes its output block back to the
  same two cliques of the result. The body's stored block is the aggregation of the staged parameter block by the
  attention weights of the staged representation block (`Accumulate.stored_apply`, `Weights.pay2_apply`), and a clique
  of a staged block is a clique of the argument, so point `t` writes block `t` of `CliqueAttention.result` of the two
  argument arrays. The 32 blocks tile the result array (the point covering clique `k` is `k / 2`), hence the array ends
  as `result` of the arguments, which the run leaves unchanged.
-/
import proofs.«161778_j49168785604634_2_alg».proof.Proof.Gen.KernelIdeal.Frame
import proofs.«161778_j49168785604634_2_alg».proof.Proof.KernelWeights
import proofs.«161778_j49168785604634_2_alg».proof.Proof.KernelAccumulate
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.CliqueAttention

variable (m : (ℓ : Loc nD τ sig) → Buf (Elt Ideal) ℓ) (ρ : Dev nD → PrngReg)

/-- The representation array as launched. -/
abbrev reps (c : Dev nD) : S64x16x256.Idx → EReal := m ((c : Thread nD τ).loc main_arg0)

/-- The parameter array as launched. -/
abbrev params (c : Dev nD) : S64x16x65536.Idx → EReal := m ((c : Thread nD τ).loc main_arg1)

theorem hz : (![0, 0, 0] : Fin 3 → Nat) = fun _ => 0 := funext fun a => by fin_cases a <;> rfl

/-- What the body leaves in the output's staging buffer: its one store covers the buffer, and its loads read the two
    staged blocks whole. -/
theorem out_eq (x0 : Vec Ideal S2x16x256 .f32) (x1 : Vec Ideal S2x16x65536 .f32) :
    out0_2 x0 x1 = k0_pay1 (k0_pay2 x0) x1 (k0_pay5 (k0_pay2 x0) x1 (k0_pay4 (k0_pay2 x0) x1 (k0_pay3 x0 x1))) := by
  unfold out0_2
  rw [View.canon_unit_zero hz]
  simp only [View.ld_unit_zero (S := S2x16x256) hz, View.ld_unit_zero (S := S2x16x65536) hz]

/-- Every window moves with the grid point along the clique axis only. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The clique of the arrays that sits at position `c'` of point `t`'s blocks. -/
def cliqueAt (t : Fin cfg0.N) (c' : Fin 2) : Fin 64 :=
  ⟨2 * t.val + c'.val, by have h : t.val < cfg0.N := t.isLt; have hN : cfg0.N = 32 := N_0; omega⟩

/-- The staged representation block at point `t`, entry by entry. -/
theorem reps_block_apply (c : Dev nD) (t : Fin cfg0.N) (c' : Fin 2) (i : Fin 16) (d : Fin 256) :
    (iblk m c 0 t : Vec Ideal S2x16x256 .f32) (ix3 c' i d) = reps m c (ix3 (cliqueAt t c') i d) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 2 + 1 * c'.val = 2 * t.val + c'.val; rw [e0]; omega
  | ⟨1, _⟩ => show win0_0.index t (1 : Fin 3) * 16 + 1 * i.val = i.val; rw [e1]; omega
  | ⟨2, _⟩ => show win0_0.index t (2 : Fin 3) * 256 + 1 * d.val = d.val; rw [e2]; omega

/-- The staged parameter block at point `t`, entry by entry. -/
theorem params_block_apply (c : Dev nD) (t : Fin cfg0.N) (c' : Fin 2) (j : Fin 16) (q : Fin 65536) :
    (iblk m c 1 t : Vec Ideal S2x16x65536 .f32) (ix3 c' j q) = params m c (ix3 (cliqueAt t c') j q) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 2 + 1 * c'.val = 2 * t.val + c'.val; rw [e0]; omega
  | ⟨1, _⟩ => show win0_1.index t (1 : Fin 3) * 16 + 1 * j.val = j.val; rw [e1]; omega
  | ⟨2, _⟩ => show win0_1.index t (2 : Fin 3) * 65536 + 1 * q.val = q.val; rw [e2]; omega

/-- A clique of the staged representation block is a clique of the argument. -/
theorem clique_block (c : Dev nD) (t : Fin cfg0.N) (c' : Fin 2) :
    cliqueOf (iblk m c 0 t : Vec Ideal S2x16x256 .f32) c' = cliqueOf (reps m c) (cliqueAt t c') :=
  funext fun i => funext fun d => reps_block_apply m c t c' i d

/-- Where an entry of point `t`'s output block sits in the result array. -/
theorem out_block_emb (t : Fin cfg0.N) (c' : Fin 2) (i : Fin 16) (q : Fin 65536) :
    ((cfg0.win 2).blk t).view.emb (ix3 c' i q) = ix3 (cliqueAt t c') i q := by
  obtain ⟨-, -, -, -, -, -, e0, e1, e2⟩ := idx_facts t
  funext a
  apply Fin.ext
  match a with
  | ⟨0, _⟩ => show win0_2.index t (0 : Fin 3) * 2 + 1 * c'.val = 2 * t.val + c'.val; rw [e0]; omega
  | ⟨1, _⟩ => show win0_2.index t (1 : Fin 3) * 16 + 1 * i.val = i.val; rw [e1]; omega
  | ⟨2, _⟩ => show win0_2.index t (2 : Fin 3) * 65536 + 1 * q.val = q.val; rw [e2]; omega

/-- The body's stored block at point `t`, entry by entry, is `result` of the argument arrays at the entry's place. -/
theorem stored_block_apply (c : Dev nD) (t : Fin cfg0.N) (c' : Fin 2) (i : Fin 16) (q : Fin 65536) :
    out0_2 (iblk m c 0 t) (iblk m c 1 t) (ix3 c' i q) = result (reps m c) (params m c) (ix3 (cliqueAt t c') i q) := by
  rw [out_eq, result_apply]
  refine (Accumulate.stored_apply (iblk m c 1 t : Vec Ideal S2x16x65536 .f32) c' i q (iblk m c 0 t : Vec Ideal S2x16x256 .f32)).trans ?_
  refine Finset.sum_congr rfl fun j _ => ?_
  rw [Weights.pay2_apply (iblk m c 0 t : Vec Ideal S2x16x256 .f32) c' i j, clique_block m c t c', params_block_apply m c t c' j q]

/-- WHAT POINT `t` WRITES BACK is block `t` of `result` of the argument arrays. -/
theorem flushed_eq (c : Dev nD) (t : Fin cfg0.N) :
    (dats m 0 c).flushed 2 t = ((cfg0.win 2).blk t).view.read (Elt Ideal) (result (reps m c) (params m c)) := by
  show (cfg0.win 2).cut (grid0.coords t) ((dats m 0 c).after 2 t) = _
  rw [after0_2]
  funext y
  obtain ⟨c', i, q, rfl⟩ : ∃ (c' : Fin 2) (i : Fin 16) (q : Fin 65536), y = ix3 c' i q := ⟨y 0, y 1, y 2, eq_ix3 y⟩
  rw [View.read_apply, out_block_emb t c' i q]
  exact stored_block_apply m c t c' i q

/-- An index of the result array is in point `t`'s block iff each coordinate is in the block's range on its axis. -/
theorem mem_blk (t : Fin cfg0.N) (o : S64x16x65536.Idx) :
    o ∈ ((cfg0.win 2).blk t).view.set ↔ ∀ a : Fin 3, win0_2.index t a * S2x16x65536.size a ≤ (o a).val ∧ (o a).val < win0_2.index t a * S2x16x65536.size a + S2x16x65536.size a := by
  show o ∈ ((View.whole main_v0).slice (win0_2.rect t)).set ↔ _
  rw [View.set_slice_whole, Rect.mem_set_unit]
  exact Iff.rfl

/-- The blocks tile the result array: clique `k` is written by point `k / 2`. -/
theorem covered (o : S64x16x65536.Idx) : ∃ t : Fin cfg0.N, (cfg0.win 2).flush t = true ∧ o ∈ ((cfg0.win 2).blk t).view.set := by
  have h0 : (o 0).val < 64 := (o 0).isLt
  have h1 : (o 1).val < 16 := (o 1).isLt
  have h2 : (o 2).val < 65536 := (o 2).isLt
  have hN : cfg0.N = 32 := N_0
  let t : Fin cfg0.N := ⟨(o 0).val / 2, by omega⟩
  obtain ⟨-, -, -, -, -, -, e0, e1, e2⟩ := idx_facts t
  have ht : t.val = (o 0).val / 2 := rfl
  refine ⟨t, flush0_2 t, ?_⟩
  rw [mem_blk]
  intro a
  match a with
  | ⟨0, _⟩ => show win0_2.index t (0 : Fin 3) * 2 ≤ (o 0).val ∧ (o 0).val < win0_2.index t (0 : Fin 3) * 2 + 2; rw [e0, ht]; omega
  | ⟨1, _⟩ => show win0_2.index t (1 : Fin 3) * 16 ≤ (o 1).val ∧ (o 1).val < win0_2.index t (1 : Fin 3) * 16 + 16; rw [e1]; omega
  | ⟨2, _⟩ => show win0_2.index t (2 : Fin 3) * 65536 ≤ (o 2).val ∧ (o 2).val < win0_2.index t (2 : Fin 3) * 65536 + 65536; rw [e2]; omega

/-- THE RESULT ARRAY after the run. -/
theorem final (c : Dev nD) : (dats m 0 c).arrAt 2 cfg0.N = result (reps m c) (params m c) :=
  (dats m 0 c).arrAt_eq_of_cover 2 (result (reps m c) (params m c)) (fun t _ => flushed_eq m c t) covered

/-- The run, read: the result array at `result` of the arguments as launched, the arguments unchanged (an input window's
    array is never written back, and is the launched array when the region is entered). -/
theorem run : θ_run defs (onTc (τ := τ) (main (F := Ideal))) ⟨m, fun _ => 0, ρ⟩ fun r => ∀ c : Dev nD,
      r.2.mem ((c : Thread nD τ).loc main_v0) = result (reps m c) (params m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefWeights.lean ====
/-
  The reference's attention weights, read index by index.

  The reference computes on whole arrays of 64 cliques: row norms (a sum of squares from zero, then a square root), all
  pairwise inner products (one contraction), the similarity, a row maximum from −∞, shifted exponentials, their row
  sums from zero, the quotient, and one contraction of the weights with the parameters. Read at clique `c` and members
  `i`, `j`, each stage is the corresponding quantity of `Cert.CliqueAttention` at clique `c` of the argument: the
  broadcasts only copy a row statistic along the axis it was reduced over, and a sum or a maximum started from its
  unit is the plain sum or maximum.
-/
import proofs.«161778_j49168785604634_2_alg».proof.Proof.Gen.ReferenceIdeal.Read
import proofs.«161778_j49168785604634_2_alg».proof.Proof.Spec

noncomputable section

namespace Cert.ReferenceIdeal.Weights

open Cert.ReferenceIdeal Cert.ReferenceIdeal.Gen Cert.ReferenceIdeal.Read Idealize.ShloMosaic Idealize.ShloMosaic.ValueIdx
open Cert.CliqueAttention

variable (x0 : (⟨S64x16x256, .f32⟩ : BufTy).Contents (Elt Ideal))

/-- The row norms: `sqrt (0 + Σ_d x² )` at `(c, i)` is the norm of member `i` of clique `c`. -/
theorem ref_norm (c : Fin 64) (i : Fin 16) :
    val_main_v0 (F := Ideal) x0 (ix2 c i) = repNorm (cliqueOf x0 c) i := by
  rw [val_main_v0_apply, val_main_call0_v1_apply]
  have e : ∀ k, idx_main_call0_v1 (ix2 c i) k = ix3 c i k := fun k => funext fun a => by
    match a with | ⟨0, _⟩ => rfl | ⟨1, _⟩ => rfl | ⟨2, _⟩ => rfl
  simp only [val_main_call0_cst_apply, val_main_call0_v0_apply, Ideal.hostUnary_sqrt_def, Ideal.ofBits_def, Ideal.mulf_def,
    Ideal.ofBits_zero_f32, zero_add, e]
  rfl

/-- The similarities: the contraction over `d` divided by the product of the two broadcast norms plus ε. -/
theorem ref_sim (c : Fin 64) (i j : Fin 16) :
    val_main_v9 (F := Ideal) x0 (ix3 c i j) = cosSim (cliqueOf x0 c) i j := by
  rw [val_main_v9_apply, val_main_v1_apply, val_main_v8_apply, val_main_v6_apply, val_main_v4_apply, val_main_v2_apply,
    val_main_v5_apply, val_main_v3_apply, val_main_v7_apply, val_main_cst_apply]
  have e4 : idx_main_v2 (idx_main_v4 (ix3 c i j)) = ix2 c i := funext fun a => by
    match a with | ⟨0, _⟩ => rfl | ⟨1, _⟩ => rfl
  have e5 : idx_main_v3 (idx_main_v5 (ix3 c i j)) = ix2 c j := funext fun a => by
    match a with | ⟨0, _⟩ => rfl | ⟨1, _⟩ => rfl
  have el : ∀ k, lidx_main_v1 (ix3 c i j) k = ix3 c i k := fun k => funext fun a => by
    match a with | ⟨0, _⟩ => rfl | ⟨1, _⟩ => rfl | ⟨2, _⟩ => rfl
  have er : ∀ k, ridx_main_v1 (ix3 c i j) k = ix3 c j k := fun k => funext fun a => by
    match a with | ⟨0, _⟩ => rfl | ⟨1, _⟩ => rfl | ⟨2, _⟩ => rfl
  rw [e4, e5, ref_norm, ref_norm]
  simp only [el, er, Ideal.hostDivf_def, Ideal.addf_def, Ideal.mulf_def, Ideal.ofBits_def]
  rfl

/-- The row maxima: the maximum over `j` from −∞, then once more against −∞. -/
theorem ref_max (c : Fin 64) (i : Fin 16) :
    val_main_v12 (F := Ideal) x0 (ix2 c i) = simMax (cliqueOf x0 c) i := by
  rw [val_main_v12_apply, val_main_v11_apply, val_main_cst_1_apply]
  have hr : S64x16x16.Reduces [2] S64x16 := by decide
  have e : ∀ k : Fin 16, hr.lift (ix2 c i) k = ix3 c i k := fun k => funext fun a => by
    match a with | ⟨0, _⟩ => rfl | ⟨1, _⟩ => rfl | ⟨2, _⟩ => rfl
  have h10 : val_main_v10 (F := Ideal) x0 (ix2 c i)
      = (Finset.univ : Finset (Fin 16)).fold max negInf fun j => cosSim (cliqueOf x0 c) i j := by
    unfold val_main_v10
    refine (Host.reduce_eq_fold_single (α := Ideal .f32) (FloatOps.maximumf (F := Ideal) (φ := .f32))
      (val_main_v9 (F := Ideal) x0 : S64x16x16.Idx → Ideal .f32) (val_main_cst_0 (F := Ideal) : S_.Idx → Ideal .f32)
      reducesTo_S64x16x16_S64x16_d2 hr h_S_ (ix2 c i)).trans ?_
    refine congrArg (fun f => (Finset.univ : Finset (Fin 16)).fold max negInf f) (funext fun (k : Fin 16) => ?_)
    exact (congrArg (val_main_v9 (F := Ideal) x0) (e k)).trans (ref_sim x0 c i k)
  rw [h10]
  rfl

/-- The shifted exponentials. -/
theorem ref_exp (c : Fin 64) (i j : Fin 16) :
    val_main_v16 (F := Ideal) x0 (ix3 c i j) = expShift (cliqueOf x0 c) i j := by
  rw [val_main_v16_apply, val_main_v15_apply, val_main_v14_apply, val_main_v13_apply]
  have e : idx_main_v13 (idx_main_v14 (ix3 c i j)) = ix2 c i := funext fun a => by
    match a with | ⟨0, _⟩ => rfl | ⟨1, _⟩ => rfl
  rw [e, ref_max, ref_sim]
  rfl

/-- The row sums of the exponentials, from zero. -/
theorem ref_sum (c : Fin 64) (i : Fin 16) :
    val_main_v17 (F := Ideal) x0 (ix2 c i) = expSum (cliqueOf x0 c) i := by
  rw [val_main_v17_apply]
  have e : ∀ k, idx_main_v17 (ix2 c i) k = ix3 c i k := fun k => funext fun a => by
    match a with | ⟨0, _⟩ => rfl | ⟨1, _⟩ => rfl | ⟨2, _⟩ => rfl
  simp only [val_main_cst_2_apply, Ideal.ofBits_def, Ideal.ofBits_zero_f32, zero_add, e, ref_exp]
  rfl

/-- The attention weights. -/
theorem ref_weight (c : Fin 64) (i j : Fin 16) :
    val_main_v20 (F := Ideal) x0 (ix3 c i j) = weight (cliqueOf x0 c) i j := by
  rw [val_main_v20_apply, val_main_v19_apply, val_main_v18_apply]
  have e : idx_main_v18 (idx_main_v19 (ix3 c i j)) = ix2 c i := funext fun a => by
    match a with | ⟨0, _⟩ => rfl | ⟨1, _⟩ => rfl
  rw [e, ref_sum, ref_exp]
  rfl

/-- The reference's result array is `result` of its two arguments. -/
theorem ref_result (x1 : (⟨S64x16x65536, .f32⟩ : BufTy).Contents (Elt Ideal)) :
    val_main_v21 (F := Ideal) x0 x1 = result x0 x1 := by
  funext o
  obtain ⟨c, i, q, rfl⟩ : ∃ (c : Fin 64) (i : Fin 16) (q : Fin 65536), o = ix3 c i q := ⟨o 0, o 1, o 2, eq_ix3 o⟩
  rw [val_main_v21_apply, result_apply]
  have el : ∀ k, lidx_main_v21 (ix3 c i q) k = ix3 c i k := fun k => funext fun a => by
    match a with | ⟨0, _⟩ => rfl | ⟨1, _⟩ => rfl | ⟨2, _⟩ => rfl
  have er : ∀ k, ridx_main_v21 (ix3 c i q) k = ix3 c k q := fun k => funext fun a => by
    match a with | ⟨0, _⟩ => rfl | ⟨1, _⟩ => rfl | ⟨2, _⟩ => rfl
  simp only [el, er, ref_weight]
  rfl

end Cert.ReferenceIdeal.Weights

end
-- ==== Proof.lean ====
/-
  The certificate: a Pallas kernel for cosine-similarity attention inside cliques against its jnp reference, on the
  extended reals.

  Both programs take representation vectors `x : [64, 16, 256]` and parameters `p : [64, 16, 65536]` and return, for
  clique `c`, member `i` and parameter coordinate `q`,

      Σ_j softmax_j ( ⟨x_ci, x_cj⟩ / (‖x_ci‖ · ‖x_cj‖ + ε) ) · p_cjq .

  The kernel walks the cliques two at a time; on each pair it forms the norms, the inner products (a matrix product
  into a zero accumulator), the similarities, a softmax over `j` with the row maximum subtracted, and then the
  aggregation as sixteen broadcast multiply-and-add steps onto a zero block. The reference does the same on whole
  arrays, with the aggregation as one contraction over `j`. With exact operations the stages agree one by one — the
  same regulariser word ε, the same −∞ under both maxima, sums and maxima started from their units — and the only
  difference of arrangement is the order in which the sixteen products are added, which is immaterial because addition
  on the extended reals is commutative and associative with unit zero (`CliqueAttention.sum_fin16`). No finiteness of
  the inputs is used: the precondition is never opened.

  `CliqueAttention.result` (Proof/Spec.lean) is the common value. The kernel's result array is `result` of its arguments
  by Proof/KernelWeights.lean (the weights on a block), Proof/KernelAccumulate.lean (the sixteen steps) and
  Proof/KernelValue.lean (blocks to the array, and the run); the reference's by Proof/RefWeights.lean over its run read
  one operation at a time. The three frames are the programs' runs with the results dropped; the idealization rewrote
  nothing, so `preserves` has nothing to state.
-/
import proofs.«161778_j49168785604634_2_alg».proof.Defs
import proofs.«161778_j49168785604634_2_alg».proof.Proof.Gen.Kernel
import proofs.«161778_j49168785604634_2_alg».proof.Proof.Gen.Kernel.Frame
import proofs.«161778_j49168785604634_2_alg».proof.Proof.Gen.KernelIdeal
import proofs.«161778_j49168785604634_2_alg».proof.Proof.Gen.KernelIdeal.Frame
import proofs.«161778_j49168785604634_2_alg».proof.Proof.Gen.ReferenceIdeal
import proofs.«161778_j49168785604634_2_alg».proof.Proof.Gen.ReferenceIdeal.Run
import proofs.«161778_j49168785604634_2_alg».proof.Proof.Gen.ReferenceIdeal.Read
import proofs.«161778_j49168785604634_2_alg».proof.Proof.Gen.Pre_finite_inputs
import proofs.«161778_j49168785604634_2_alg».proof.Proof.KernelValue
import proofs.«161778_j49168785604634_2_alg».proof.Proof.RefWeights
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `CliqueAttention.result` of the arguments. -/
theorem algebraic : Cert.algebraic_KernelIdeal_ReferenceIdeal := by
  intro m ρ m' ρ' _ hagree
  refine ⟨fun c => Cert.CliqueAttention.result (Cert.KernelIdeal.Hand.reps m c) (Cert.KernelIdeal.Hand.params m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq m' c).trans ((Cert.ReferenceIdeal.Weights.ref_result _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
